-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x32000 : Shape := ⟨2, ![512, 32000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32000 : S_.BroadcastsInDim S512x32000 (![] : Fin 0 → Fin S512x32000.rank)
  reducesTo_S512x32000_S_d0_1 : S512x32000.ReducesTo [0, 1] S_

variable [Facts]

def fn {F : FTy → Type} [FloatOps F] (main_arg0 : FVec F S8192x512 .f32) (main_arg1 : FVec F S512x32000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x32000 .f32 := Host.absf main_arg1
  let main_cst_0 : FVec F S_ .f32 := constant S_ .f32 0x7F800000#32
  let main_v5 : FVec F S512x32000 .f32 := broadcastInDim S512x32000 ![] bcast_S_S512x32000 main_cst_0
  let main_v6 : IVec S512x32000 1 := cmpf .olt main_v4 main_v5
  let main_c_1 : IVec S_ 1 := constantI S_ 1 1#1
  let main_v7 : IVec S_ 1 := (fun x v => Host.reduce IntOp.andi x v reducesTo_S512x32000_S_d0_1 h_S_) main_v6 main_c_1
  let main_v8 : IVec S_ 1 := andi main_v3 main_v7
  main_v8
-- ==== Kernel.lean ====
abbrev S8192x512 : Shape := ⟨2, ![8192, 512]⟩
abbrev S512x32000 : Shape := ⟨2, ![512, 32000]⟩
abbrev S_ : Shape := ⟨0, ![]⟩
abbrev S8192 : Shape := ⟨1, ![8192]⟩
abbrev S8192x1 : Shape := ⟨2, ![8192, 1]⟩
abbrev S32000 : Shape := ⟨1, ![32000]⟩
abbrev S1x32000 : Shape := ⟨2, ![1, 32000]⟩
abbrev S8192x32000 : Shape := ⟨2, ![8192, 32000]⟩
abbrev S2048x512 : Shape := ⟨2, ![2048, 512]⟩
abbrev S512x1280 : Shape := ⟨2, ![512, 1280]⟩
abbrev S2048x1280 : Shape := ⟨2, ![2048, 1280]⟩

abbrev nBuf : Space → Nat
  | .hbm => 25
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x32000, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S512x32000, .f32⟩
  | .hbm, ⟨14, _⟩ => ⟨S_, .f32⟩
  | .hbm, ⟨15, _⟩ => ⟨S32000, .f32⟩
  | .hbm, ⟨16, _⟩ => ⟨S1x32000, .f32⟩
  | .hbm, ⟨17, _⟩ => ⟨S_, .f32⟩
  | .hbm, ⟨18, _⟩ => ⟨S1x32000, .f32⟩
  | .hbm, ⟨19, _⟩ => ⟨S1x32000, .f32⟩
  | .hbm, ⟨20, _⟩ => ⟨S1x32000, .f32⟩
  | .hbm, ⟨21, _⟩ => ⟨S512x32000, .f32⟩
  | .hbm, ⟨22, _⟩ => ⟨S512x32000, .f32⟩
  | .hbm, ⟨23, _⟩ => ⟨S512x32000, .bf16⟩
  | .hbm, ⟨24, _⟩ => ⟨S8192x32000, .f32⟩
  | .local _ .vmem, ⟨0, _⟩ => ⟨S2048x512, .bf16⟩
  | .local _ .vmem, ⟨1, _⟩ => ⟨S2048x512, .bf16⟩
  | .local _ .vmem, ⟨2, _⟩ => ⟨S512x1280, .bf16⟩
  | .local _ .vmem, ⟨3, _⟩ => ⟨S512x1280, .bf16⟩
  | .local _ .vmem, ⟨4, _⟩ => ⟨S2048x1280, .f32⟩
  | .local _ .vmem, ⟨5, _⟩ => ⟨S2048x1280, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  reducesTo_S512x32000_S32000_d0 : S512x32000.ReducesTo [0] S32000
  bcast_S32000_S1x32000_1 : S32000.BroadcastsInDim S1x32000 (![1] : Fin 1 → Fin S1x32000.rank)
  bcast_S_S1x32000 : S_.BroadcastsInDim S1x32000 (![] : Fin 0 → Fin S1x32000.rank)
  bcast_S1x32000_S512x32000_0_1 : S1x32000.BroadcastsInDim S512x32000 (![0, 1] : Fin 2 → Fin S512x32000.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S2048x1280_S2048x1280_0_0 : ∀ a, (![0, 0] : Fin 2 → Nat) a + S2048x1280.size a ≤ S2048x1280.size a
  h_S2048x1280 : 0 < S2048x1280.numel
  dot_S2048x512_S512x1280_S2048x1280_1_0_0_1_n_n_wf : DotDims.WF S2048x512 S512x1280 S2048x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x32000.size a
  hwx0_1 : ∀ i : grid0.Coords, EltTy.bits .bf16 = 32 ∨ (Rect.block (s := S512x32000) S512x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1280.size a ≤ S8192x32000.size a
  hwx0_2 : ∀ i : grid0.Coords, EltTy.bits .f32 = 32 ∨ (Rect.block (s := S8192x32000) S2048x1280.size (cc0_transform_2 i) (hinb0_2 i)).WholeWords (EltTy.packing .f32)

variable [Facts₀]

def dot_S2048x512_S512x1280_S2048x1280_1_0_0_1_n_n : DotDims S2048x512 S512x1280 S2048x1280 where
  lhsContracting := [1]
  rhsContracting := [0]
  lhsNonContracting := [0]
  rhsNonContracting := [1]
  lhsBatch := []
  rhsBatch := []
  wf := dot_S2048x512_S512x1280_S2048x1280_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x32000 : Shape := ⟨2, ![512, 32000]⟩
abbrev S_ : Shape := ⟨0, ![]⟩
abbrev S8192 : Shape := ⟨1, ![8192]⟩
abbrev S8192x1 : Shape := ⟨2, ![8192, 1]⟩
abbrev S32000 : Shape := ⟨1, ![32000]⟩
abbrev S1x32000 : Shape := ⟨2, ![1, 32000]⟩
abbrev S8192x32000 : Shape := ⟨2, ![8192, 32000]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32000, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x32000, .f32⟩
  | .hbm, ⟨13, _⟩ => ⟨S_, .f32⟩
  | .hbm, ⟨14, _⟩ => ⟨S32000, .f32⟩
  | .hbm, ⟨15, _⟩ => ⟨S1x32000, .f32⟩
  | .hbm, ⟨16, _⟩ => ⟨S_, .f32⟩
  | .hbm, ⟨17, _⟩ => ⟨S1x32000, .f32⟩
  | .hbm, ⟨18, _⟩ => ⟨S1x32000, .f32⟩
  | .hbm, ⟨19, _⟩ => ⟨S1x32000, .f32⟩
  | .hbm, ⟨20, _⟩ => ⟨S512x32000, .f32⟩
  | .hbm, ⟨21, _⟩ => ⟨S512x32000, .f32⟩
  | .hbm, ⟨22, _⟩ => ⟨S8192x32000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S512x32000_S32000_d0 : S512x32000.ReducesTo [0] S32000
  bcast_S32000_S1x32000_1 : S32000.BroadcastsInDim S1x32000 (![1] : Fin 1 → Fin S1x32000.rank)
  bcast_S_S1x32000 : S_.BroadcastsInDim S1x32000 (![] : Fin 0 → Fin S1x32000.rank)
  bcast_S1x32000_S512x32000_0_1 : S1x32000.BroadcastsInDim S512x32000 (![0, 1] : Fin 2 → Fin S512x32000.rank)
  dot_S8192x512_S512x32000_S8192x32000_1_0_0_1_n_n_wf : DotDims.WF S8192x512 S512x32000 S8192x32000 [1] [0] [0] [1] [] []

variable [Facts₀]

def dot_S8192x512_S512x32000_S8192x32000_1_0_0_1_n_n : DotDims S8192x512 S512x32000 S8192x32000 where
  lhsContracting := [1]
  rhsContracting := [0]
  lhsNonContracting := [0]
  rhsNonContracting := [1]
  lhsBatch := []
  rhsBatch := []
  wf := dot_S8192x512_S512x32000_S8192x32000_1_0_0_1_n_n_wf

class Facts : Prop extends Facts₀ where

variable [Facts]
-- ==== Proof.MatSpec.lean ====
/-
  The common value of the two programs, as one function of two matrices.

  Both programs first scale every row of the 8192 × 512 input to unit length and every column of the
  512 × 32000 weight to unit length, and then multiply the two scaled matrices.  Over the extended reals
  the product has no rounding and no order of summation, so its entry at (row b, column n) is the plain sum

      ∑ k < 512,  X (b, k) · W (k, n).

  This module states that sum over the literal shapes and nothing else; the two programs are compared
  with it in the other modules.
-/
import Idealize.ShloMosaic.PureOps.Ideal
import Idealize.ShloMosaic.Lib.ValueIdx

noncomputable section

open scoped BigOperators

namespace Cert.Cosine

open Idealize.ShloMosaic

/-- The scaled input: 8192 rows of 512 channels. -/
abbrev SX : Shape := ⟨2, ![8192, 512]⟩
/-- The scaled weight: 512 channels by 32000 classes. -/
abbrev SW : Shape := ⟨2, ![512, 32000]⟩
/-- The product: 8192 rows by 32000 classes. -/
abbrev SO : Shape := ⟨2, ![8192, 32000]⟩

/-- The left factor's index met by the product's entry `i` at channel `k`: (row of `i`, `k`). -/
abbrev leftAt (i : SO.Idx) (k : Fin 512) : SX.Idx := fun a => match a with
  | ⟨0, _⟩ => ⟨(i 0).val, (i 0).isLt⟩
  | ⟨1, _⟩ => ⟨k.val, k.isLt⟩

/-- The right factor's index met by the product's entry `i` at channel `k`: (`k`, column of `i`). -/
abbrev rightAt (i : SO.Idx) (k : Fin 512) : SW.Idx := fun a => match a with
  | ⟨0, _⟩ => ⟨k.val, k.isLt⟩
  | ⟨1, _⟩ => ⟨(i 1).val, (i 1).isLt⟩

/-- The matrix product over the extended reals, entry by entry: the sum over the 512 channels of the
    left factor's row entry times the right factor's column entry. -/
def product (X : SX.Idx → EReal) (W : SW.Idx → EReal) : SO.Idx → EReal :=
  fun i => ∑ k : Fin 512, X (leftAt i k) * W (rightAt i k)

theorem product_apply (X : SX.Idx → EReal) (W : SW.Idx → EReal) (i : SO.Idx) :
    product X W i = ∑ k : Fin 512, X (leftAt i k) * W (rightAt i k) := rfl

end Cert.Cosine

end
-- ==== Proof.BlockProduct.lean ====
/-
  One tile of the product.

  At a grid point the kernel body holds a 2048 × 512 tile of the scaled input and a 512 × 1280 tile of
  the scaled weight, and stores their matrix product accumulated onto zero.  Over the extended reals the
  entry (p, q) of what it stores is therefore

      ∑ k < 512,  x (p, k) · w (k, q),

  the contraction running over the one shared axis.  (The two shape casts in the body keep the shape and
  are the identity.)
-/
import proofs.«176053_j32057635897558_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Cosine.Tile

open Cert.KernelIdeal Cert.KernelIdeal.Gen Idealize.ShloMosaic

/-- The input tile's index met by the tile product's entry `y` at channel `k`: (row of `y`, `k`). -/
abbrev tileLeft (y : S2048x1280.Idx) (k : Fin 512) : S2048x512.Idx := fun a => match a with
  | ⟨0, _⟩ => ⟨(y 0).val, (y 0).isLt⟩
  | ⟨1, _⟩ => ⟨k.val, k.isLt⟩

/-- The weight tile's index met by the tile product's entry `y` at channel `k`: (`k`, column of `y`). -/
abbrev tileRight (y : S2048x1280.Idx) (k : Fin 512) : S512x1280.Idx := fun a => match a with
  | ⟨0, _⟩ => ⟨k.val, k.isLt⟩
  | ⟨1, _⟩ => ⟨(y 1).val, (y 1).isLt⟩

local notation "dotT" => dot_S2048x512_S512x1280_S2048x1280_1_0_0_1_n_n

theorem lhs_row (y : S2048x1280.Idx) (q : (dotT).contr.Idx) : ((dotT).lhsIdx y q 0).val = (y 0).val := by
  unfold DotDims.lhsIdx
  rw [dif_neg (show ¬(0 : Fin S2048x512.rank) ∈ (dotT).lhsBatch by decide),
    dif_pos (show (0 : Fin S2048x512.rank) ∈ (dotT).lhsNonContracting by decide)]
  rfl

theorem lhs_chan (y : S2048x1280.Idx) (q : (dotT).contr.Idx) :
    ((dotT).lhsIdx y q 1).val = (q ⟨0, by decide⟩).val :=
  (dotT).lhsIdx_val_of_single rfl y q

theorem rhs_chan (y : S2048x1280.Idx) (q : (dotT).contr.Idx) :
    ((dotT).rhsIdx y q 0).val = (q ⟨0, by decide⟩).val :=
  (dotT).rhsIdx_val_of_single rfl y q

theorem rhs_col (y : S2048x1280.Idx) (q : (dotT).contr.Idx) : ((dotT).rhsIdx y q 1).val = (y 1).val := by
  unfold DotDims.rhsIdx
  rw [dif_neg (show ¬(1 : Fin S512x1280.rank) ∈ (dotT).rhsBatch by decide),
    dif_pos (show (1 : Fin S512x1280.rank) ∈ (dotT).rhsNonContracting by decide)]
  rfl

/-- The body's stored value at an entry of the tile: the sum over the 512 channels of the input tile's row
    entry times the weight tile's column entry. -/
theorem pay_apply (x : Vec Ideal S2048x512 .bf16) (w : Vec Ideal S512x1280 .bf16) (y : S2048x1280.Idx) :
    k0_pay1 (F := Ideal) x w y = ∑ k : Fin 512, x (tileLeft y k) * w (tileRight y k) := by
  unfold k0_pay1
  rw [shapeCast_self, shapeCast_self]
  simp only [matmul]
  rw [Ideal.matmul_constant_zero_apply, ← Equiv.sum_comp (ValueIdx.contrEquiv1 (dotT) 512 rfl rfl).symm]
  refine Finset.sum_congr rfl fun k _ => ?_
  have hk := ValueIdx.contrEquiv1_symm_val (dotT) 512 rfl rfl k
  have el : (dotT).lhsIdx y ((ValueIdx.contrEquiv1 (dotT) 512 rfl rfl).symm k) = tileLeft y k :=
    funext fun a => Fin.ext (by
      match a with
      | ⟨0, _⟩ => exact lhs_row _ _
      | ⟨1, _⟩ => exact (lhs_chan _ _).trans hk)
  have er : (dotT).rhsIdx y ((ValueIdx.contrEquiv1 (dotT) 512 rfl rfl).symm k) = tileRight y k :=
    funext fun a => Fin.ext (by
      match a with
      | ⟨0, _⟩ => exact (rhs_chan _ _).trans hk
      | ⟨1, _⟩ => exact rhs_col _ _)
  rw [el, er]

end Cert.Cosine.Tile

end
-- ==== Proof.TileCover.lean ====
/-
  From tiles to the whole product.

  The kernel's grid has 4 × 25 points.  At the point with coordinates (r, s) the body is given rows
  2048·r … 2048·r + 2047 of the scaled input (all 512 channels), columns 1280·s … 1280·s + 1279 of the
  scaled weight (all 512 channels), and writes back rows 2048·r … and columns 1280·s … of the result.
  So the tile it writes is exactly that tile of the product of the two whole scaled matrices: the entry
  (p, q) of the tile is the sum over the channels k of input (2048·r + p, k) times weight (k, 1280·s + q).
  The 100 tiles cover every entry of the 8192 × 32000 result (entry (b, n) lies in the tile of the point
  with r = b / 2048, s = n / 1280), hence after the run the result array IS the product.
-/
import proofs.«176053_j32057635897558_2_alg».proof.Proof.Gen.KernelIdeal.Value
import proofs.«176053_j32057635897558_2_alg».proof.Proof.MatSpec
import proofs.«176053_j32057635897558_2_alg».proof.Proof.BlockProduct

set_option maxRecDepth 16384

noncomputable section

open scoped BigOperators

namespace Cert.Cosine.Whole

open Cert.KernelIdeal Cert.KernelIdeal.Gen Cert.KernelIdeal.Value Idealize.ShloMosaic Idealize.ShloMosaic.TcCoe Idealize.SL.Sem
open Idealize.ShloMosaic.Pipeline (Dat)
open Cert.Cosine Cert.Cosine.Tile

variable (m : (ℓ : Loc nD τ sig) → Buf (Elt Ideal) ℓ) (ρ : Dev nD → PrngReg)

theorem origin : (![0, 0] : Fin 2 → Nat) = fun _ => 0 := funext fun a => by fin_cases a <;> rfl

/-- How the three windows move over the grid: the input tile follows the result tile's rows and stays at
    channel block 0; the weight tile stays at channel block 0 and follows the result tile's columns. -/
theorem tile_positions : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every (row block, column block) pair is the result tile of some grid point. -/
theorem tile_onto : ∀ (q0 : Fin 4) (q1 : Fin 25), ∃ t : Fin cfg0.N, win0_2.index t = ![q0.val, q1.val] :=
  (by decide +kernel : ∀ (q0 : Fin 4) (q1 : Fin 25), ∃ t : Fin grid0.N, win0_2.index t = ![q0.val, q1.val])

/-- The input tile at a point, at (row p of the tile, channel k), is the scaled input at the row the result
    tile's entry sits in and channel k. -/
theorem input_tile (c : Dev nD) (t : Fin cfg0.N) (y : S2048x1280.Idx) (k : Fin 512) :
    iblk m c 0 t (tileLeft y k) = V m c main_v8 (leftAt (((cfg0.win 2).blk t).view.emb y) k) := by
  obtain ⟨e0, e1, e2, e3⟩ := tile_positions t
  show V m c main_v8 (((cfg0.win 0).blk t).view.emb (tileLeft y k)) = _
  refine congrArg (V m c main_v8) (funext fun a => Fin.ext ?_)
  match a with
  | ⟨0, _⟩ =>
    show win0_0.index t (0 : Fin 2) * 2048 + 1 * (y 0).val = win0_2.index t (0 : Fin 2) * 2048 + 1 * (y 0).val
    omega
  | ⟨1, _⟩ =>
    show win0_0.index t (1 : Fin 2) * 512 + 1 * k.val = k.val
    omega

/-- The weight tile at a point, at (channel k, column q of the tile), is the scaled weight at channel k and
    the column the result tile's entry sits in. -/
theorem weight_tile (c : Dev nD) (t : Fin cfg0.N) (y : S2048x1280.Idx) (k : Fin 512) :
    iblk m c 1 t (tileRight y k) = V m c main_v17 (rightAt (((cfg0.win 2).blk t).view.emb y) k) := by
  obtain ⟨e0, e1, e2, e3⟩ := tile_positions t
  show V m c main_v17 (((cfg0.win 1).blk t).view.emb (tileRight y k)) = _
  refine congrArg (V m c main_v17) (funext fun a => Fin.ext ?_)
  match a with
  | ⟨0, _⟩ =>
    show win0_1.index t (0 : Fin 2) * 512 + 1 * k.val = k.val
    omega
  | ⟨1, _⟩ =>
    show win0_1.index t (1 : Fin 2) * 1280 + 1 * (y 1).val = win0_2.index t (1 : Fin 2) * 1280 + 1 * (y 1).val
    omega

/-- What a grid point writes back is its tile of the product of the two scaled matrices as the region
    finds them. -/
theorem flushed_eq (c : Dev nD) (t : Fin cfg0.N) :
    (dats m 0 c).flushed 2 t
      = ((cfg0.win 2).blk t).view.read (Elt Ideal) (product (V m c main_v8) (V m c main_v17)) := by
  rw [Value.flushed2]
  unfold out0_2
  rw [View.canon_unit_zero origin]
  simp only [View.ld_unit_zero (S := S2048x512) origin, View.ld_unit_zero (S := S512x1280) origin]
  funext y
  show k0_pay1 (iblk m c 0 t) (iblk m c 1 t) y
    = product (V m c main_v8) (V m c main_v17) (((cfg0.win 2).blk t).view.emb y)
  refine (pay_apply (iblk m c 0 t) (iblk m c 1 t) y).trans ?_
  rw [product_apply]
  refine Finset.sum_congr rfl fun k _ => ?_
  rw [input_tile m c t y k, weight_tile m c t y k]

/-- An entry of the result lies in a point's tile iff each coordinate lies in the tile's range on its axis. -/
theorem mem_tile (t : Fin cfg0.N) (i : S8192x32000.Idx) :
    i ∈ ((cfg0.win 2).blk t).view.set ↔ ∀ a : Fin 2, win0_2.index t a * S2048x1280.size a ≤ (i a).val
      ∧ (i a).val < win0_2.index t a * S2048x1280.size a + S2048x1280.size a := by
  show i ∈ ((View.whole main_v18).slice (win0_2.rect t)).set ↔ _
  rw [View.set_slice_whole, Rect.mem_set_unit]
  exact Iff.rfl

/-- Every entry of the result lies in the tile of the point whose row block is its row divided by 2048 and
    whose column block is its column divided by 1280. -/
theorem tiles_cover (i : S8192x32000.Idx) :
    ∃ t : Fin cfg0.N, (cfg0.win 2).flush t = true ∧ i ∈ ((cfg0.win 2).blk t).view.set := by
  have hi0 : (i 0).val < 8192 := (i 0).isLt
  have hi1 : (i 1).val < 32000 := (i 1).isLt
  obtain ⟨t, ht⟩ := tile_onto ⟨(i 0).val / 2048, by omega⟩ ⟨(i 1).val / 1280, by omega⟩
  have q0 : win0_2.index t (0 : Fin 2) = (i 0).val / 2048 := congrFun ht 0
  have q1 : win0_2.index t (1 : Fin 2) = (i 1).val / 1280 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1280 ≤ (i 1).val ∧ (i 1).val < win0_2.index t (1 : Fin 2) * 1280 + 1280
    omega

/-- After the run the result array is the product of the two scaled matrices as the region finds them. -/
theorem final (c : Dev nD) :
    (dats m 0 c).arrAt 2 cfg0.N = product (V m c main_v8) (V m c main_v17) :=
  (dats m 0 c).arrAt_eq_of_cover 2 (product (V m c main_v8) (V m c main_v17))
    (fun t _ => flushed_eq m c t) tiles_cover

/-- The kernel's run: it terminates with the result array at the product of the two scaled matrices and the
    two arguments unchanged. -/
theorem run : θ_run defs (onTc (τ := τ) (main (F := Ideal))) ⟨m, fun _ => 0, ρ⟩ fun r => ∀ c : Dev nD,
      r.2.mem ((c : Thread nD τ).loc main_v18) = product (V m c main_v8) (V m c main_v17)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Cosine.Whole

end
-- ==== Proof.HostScaling.lean ====
/-
  The two matrices the kernel's region is given.

  Before the region the kernel's program scales the input and the weight on the host exactly as the
  reference does — square, sum over the channel axis, floor the sum at the same small constant, take the
  reciprocal square root, multiply back — and then narrows each scaled matrix to a shorter float format.
  Over the extended reals a change of format is the identity, so the region finds the reference's own two
  scaled matrices (its stages 7 and 15), as functions of the same arguments.  Both sides are the same
  composition of the same host operations with the same literals, so nothing is opened: the equality
  holds by unfolding the names.
-/
import proofs.«176053_j32057635897558_2_alg».proof.Proof.Gen.KernelIdeal.Frame
import proofs.«176053_j32057635897558_2_alg».proof.Proof.Gen.ReferenceIdeal.Read
import Idealize.ShloMosaic.Lib.StableHlo.Run

noncomputable section

namespace Cert.Cosine.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The left matrix the region finds is the reference's row-scaled input, of the kernel's first argument. -/
theorem scaled_input (c : Dev nD) :
    (V m c main_v8 : S8192x512.Idx → EReal)
      = Cert.ReferenceIdeal.Read.val_main_v7 (F := Ideal) (m ((c : Thread nD τ).loc main_arg0)) := by
  dsimp only [Gen.V, Gen.hostOps0]
  after_results
  rfl

/-- The right matrix the region finds is the reference's column-scaled weight, of the kernel's second
    argument. -/
theorem scaled_weight (c : Dev nD) :
    (V m c main_v17 : S512x32000.Idx → EReal)
      = Cert.ReferenceIdeal.Read.val_main_v15 (F := Ideal) (m ((c : Thread nD τ).loc main_arg1)) := by
  dsimp only [Gen.V, Gen.hostOps0]
  after_results
  rfl

end Cert.Cosine.Host

end
-- ==== Proof.RefValue.lean ====
/-
  The reference computes the product of its two scaled matrices.

  Its last operation is the host's contraction of the scaled input (stage 7 of its program) with the
  scaled weight (stage 15) over the shared channel axis; over the extended reals that contraction is
  the plain sum over the 512 channels, which is the specification's `product`.
-/
import proofs.«176053_j32057635897558_2_alg».proof.Proof.Gen.ReferenceIdeal.Read
import proofs.«176053_j32057635897558_2_alg».proof.Proof.MatSpec

noncomputable section

open scoped BigOperators

namespace Cert.Cosine.Ref

open Cert.ReferenceIdeal Cert.ReferenceIdeal.Read Idealize.ShloMosaic Cert.Cosine

/-- The reference's result, as a function of its two arguments, is the product of the row-scaled input
    and the column-scaled weight. -/
theorem result_eq (x0 : (⟨S8192x512, .f32⟩ : BufTy).Contents (Elt Ideal))
    (x1 : (⟨S512x32000, .f32⟩ : BufTy).Contents (Elt Ideal)) :
    val_main_v16 (F := Ideal) x0 x1
      = product (val_main_v7 (F := Ideal) x0) (val_main_v15 (F := Ideal) x1) := by
  funext i
  rw [val_main_v16_apply]
  rfl

end Cert.Cosine.Ref

end
-- ==== Proof.lean ====
/-
  Cosine similarities of 8192 input rows against 32000 weight columns: the tiled kernel against the
  einsum reference, over the extended reals.

  Both programs scale each input row and each weight column to unit length (divide by the square root of
  the sum of squares, the sum floored at one small constant) with the same host operations and the same
  literals.  The reference then contracts the two scaled matrices over the 512 channels in one host
  contraction.  The kernel narrows the two scaled matrices to a shorter float format — the identity on
  extended reals — and multiplies them tile by tile on a 4 × 25 grid, each point producing a 2048 × 1280
  tile as a matrix product onto a zero accumulator with all 512 channels present.

  The proof:
  * `MatSpec`      — the product of two matrices, entry by entry, as a sum over the channels;
  * `BlockProduct` — the body's stored tile at an entry is that sum over the two tiles it loaded;
  * `TileCover`    — each point's tile is the matching tile of the product of the whole scaled matrices,
                     the tiles cover the result, so the result array ends at the product;
  * `HostScaling`  — the matrices the region finds are the reference's scaled matrices of the same arguments;
  * `RefValue`     — the reference's contraction is the product.
  No law beyond reading both contractions as the same finite sum is needed, so the precondition (finite
  inputs) is never opened.  Nothing was rewritten by the idealization, so `preserves` asks nothing.
-/
import proofs.«176053_j32057635897558_2_alg».proof.Defs
import proofs.«176053_j32057635897558_2_alg».proof.Proof.Gen.Kernel
import proofs.«176053_j32057635897558_2_alg».proof.Proof.Gen.Kernel.Skeleton
import proofs.«176053_j32057635897558_2_alg».proof.Proof.Gen.Kernel.Launch
import proofs.«176053_j32057635897558_2_alg».proof.Proof.Gen.Kernel.Points
import proofs.«176053_j32057635897558_2_alg».proof.Proof.Gen.Kernel.Frame
import proofs.«176053_j32057635897558_2_alg».proof.Proof.Gen.KernelIdeal
import proofs.«176053_j32057635897558_2_alg».proof.Proof.Gen.KernelIdeal.Skeleton
import proofs.«176053_j32057635897558_2_alg».proof.Proof.Gen.KernelIdeal.Launch
import proofs.«176053_j32057635897558_2_alg».proof.Proof.Gen.KernelIdeal.Points
import proofs.«176053_j32057635897558_2_alg».proof.Proof.Gen.KernelIdeal.Frame
import proofs.«176053_j32057635897558_2_alg».proof.Proof.Gen.ReferenceIdeal
import proofs.«176053_j32057635897558_2_alg».proof.Proof.Gen.Pre_finite_inputs
import proofs.«176053_j32057635897558_2_alg».proof.Proof.Gen.KernelIdeal.Value
import proofs.«176053_j32057635897558_2_alg».proof.Proof.Gen.ReferenceIdeal.Run
import proofs.«176053_j32057635897558_2_alg».proof.Proof.Gen.ReferenceIdeal.Read
import proofs.«176053_j32057635897558_2_alg».proof.Proof.MatSpec
import proofs.«176053_j32057635897558_2_alg».proof.Proof.BlockProduct
import proofs.«176053_j32057635897558_2_alg».proof.Proof.TileCover
import proofs.«176053_j32057635897558_2_alg».proof.Proof.HostScaling
import proofs.«176053_j32057635897558_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments both programs end with the result at the product of the
    row-scaled input and the column-scaled weight: the kernel tile by tile, the reference in one contraction. -/
theorem algebraic : Cert.algebraic_KernelIdeal_ReferenceIdeal := by
  intro m ρ m' ρ' _ hagree
  refine ⟨fun c => Cert.Cosine.product
      (Cert.ReferenceIdeal.Read.val_main_v7 (F := Ideal) (m ((c.tc : Thread Cert.KernelIdeal.nD Cert.KernelIdeal.τ).loc Cert.KernelIdeal.main_arg0)))
      (Cert.ReferenceIdeal.Read.val_main_v15 (F := Ideal) (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.Cosine.Whole.run m ρ)
    rw [Cert.Cosine.Host.scaled_input m c, Cert.Cosine.Host.scaled_weight m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.Cosine.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
